-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4094x4096 : Shape := ⟨2, ![4094, 4096]⟩
abbrev S4094 : Shape := ⟨1, ![4094]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4094x4096 : S_.BroadcastsInDim S4094x4096 (![] : Fin 0 → Fin S4094x4096.rank)
  reducesTo_S4094x4096_S_d0_1 : S4094x4096.ReducesTo [0, 1] S_
  bcast_S_S4094 : S_.BroadcastsInDim S4094 (![] : Fin 0 → Fin S4094.rank)
  reducesTo_S4094_S_d0 : S4094.ReducesTo [0] S_

variable [Facts]

def fn {F : FTy → Type} [FloatOps F] (main_arg0 : FVec F S4096x4096 .f32) (main_arg1 : FVec F S4094x4096 .f32) (main_arg2 : FVec F S4094 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4094x4096 .f32 := Host.absf main_arg1
  let main_cst_0 : FVec F S_ .f32 := constant S_ .f32 0x7F800000#32
  let main_v5 : FVec F S4094x4096 .f32 := broadcastInDim S4094x4096 ![] bcast_S_S4094x4096 main_cst_0
  let main_v6 : IVec S4094x4096 1 := cmpf .olt main_v4 main_v5
  let main_c_1 : IVec S_ 1 := constantI S_ 1 1#1
  let main_v7 : IVec S_ 1 := (fun x v => Host.reduce IntOp.andi x v reducesTo_S4094x4096_S_d0_1 h_S_) main_v6 main_c_1
  let main_v8 : IVec S_ 1 := andi main_v3 main_v7
  let main_v9 : FVec F S4094 .f32 := Host.absf main_arg2
  let main_cst_2 : FVec F S_ .f32 := constant S_ .f32 0x7F800000#32
  let main_v10 : FVec F S4094 .f32 := broadcastInDim S4094 ![] bcast_S_S4094 main_cst_2
  let main_v11 : IVec S4094 1 := cmpf .olt main_v9 main_v10
  let main_c_3 : IVec S_ 1 := constantI S_ 1 1#1
  let main_v12 : IVec S_ 1 := (fun x v => Host.reduce IntOp.andi x v reducesTo_S4094_S_d0 h_S_) main_v11 main_c_3
  let main_v13 : IVec S_ 1 := andi main_v8 main_v12
  main_v13
-- ==== Kernel.lean ====
abbrev S4096x4096 : Shape := ⟨2, ![4096, 4096]⟩
abbrev S4094x4096 : Shape := ⟨2, ![4094, 4096]⟩
abbrev S4094 : Shape := ⟨1, ![4094]⟩
abbrev S_ : Shape := ⟨0, ![]⟩
abbrev S8x4096 : Shape := ⟨2, ![8, 4096]⟩
abbrev S3x4096 : Shape := ⟨2, ![3, 4096]⟩
abbrev S1 : Shape := ⟨1, ![1]⟩
abbrev S3 : Shape := ⟨1, ![3]⟩
abbrev S1x8 : Shape := ⟨2, ![1, 8]⟩
abbrev S2 : Shape := ⟨1, ![2]⟩
abbrev S4096x4094 : Shape := ⟨2, ![4096, 4094]⟩
abbrev S512x4096 : Shape := ⟨2, ![512, 4096]⟩
abbrev S512x4094 : Shape := ⟨2, ![512, 4094]⟩
abbrev S512x8 : Shape := ⟨2, ![512, 8]⟩
abbrev S512x120 : Shape := ⟨2, ![512, 120]⟩
abbrev S512x128 : Shape := ⟨2, ![512, 128]⟩
abbrev S512x3966 : Shape := ⟨2, ![512, 3966]⟩

abbrev nBuf : Space → Nat
  | .hbm => 22
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4094x4096, .f32⟩
  | .hbm, ⟨2, _⟩ => ⟨S4094, .f32⟩
  | .hbm, ⟨3, _⟩ => ⟨S_, .f32⟩
  | .hbm, ⟨4, _⟩ => ⟨S8x4096, .f32⟩
  | .hbm, ⟨5, _⟩ => ⟨S3x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S3, .f32⟩
  | .hbm, ⟨10, _⟩ => ⟨S_, .f32⟩
  | .hbm, ⟨11, _⟩ => ⟨S3, .f32⟩
  | .hbm, ⟨12, _⟩ => ⟨S3, .f32⟩
  | .hbm, ⟨13, _⟩ => ⟨S_, .f32⟩
  | .hbm, ⟨14, _⟩ => ⟨S1x8, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x8, .f32⟩
  | .hbm, ⟨21, _⟩ => ⟨S4096x4094, .f32⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S1x8, .f32⟩
  | .local _ .vmem, ⟨4, _⟩ => ⟨S512x4094, .f32⟩
  | .local _ .vmem, ⟨5, _⟩ => ⟨S512x4094, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4094 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x4096 : S_.BroadcastsInDim S8x4096 (![] : Fin 0 → Fin S8x4096.rank)
  slices_S4094x4096_S3x4096_0_0 : S4094x4096.Slices ![0, 0] S3x4096
  bcast_S_S1 : S_.BroadcastsInDim S1 (![] : Fin 0 → Fin S1.rank)
  slices_S4094_S3_0 : S4094.Slices ![0] S3
  bcast_S_S3 : S_.BroadcastsInDim S3 (![] : Fin 0 → Fin S3.rank)
  bcast_S_S1x8 : S_.BroadcastsInDim S1x8 (![] : Fin 0 → Fin S1x8.rank)
  concatenates_S1_S1_S2_d0 : Shape.Concatenates [S1, S1] S2 0
  inb_S512x4096_S512x4096_0_0 : ∀ a, (![0, 0] : Fin 2 → Nat) a + S512x4096.size a ≤ S512x4096.size a
  h_S512x4096 : 0 < S512x4096.numel
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  concatenates_S512x8_S512x120_S512x128_d1 : Shape.Concatenates [S512x8, S512x120] S512x128 1
  inb_S512x4094_S512x128_0_0 : ∀ a, (![0, 0] : Fin 2 → Nat) a + S512x128.size a ≤ S512x4094.size a
  h_S512x128 : 0 < S512x128.numel
  inb_S512x4094_S512x3966_0_128 : ∀ a, (![0, 128] : Fin 2 → Nat) a + S512x3966.size a ≤ S512x4094.size a
  h_S512x3966 : 0 < S512x3966.numel
  scatter_S8x4096_S1_S3x4096_01_n_0_0_wf : ScatterDims.WF S8x4096 S1 S3x4096 [0, 1] [] [0] 0
  scatter_S1x8_S2_S3_0_0_01_0_wf : ScatterDims.WF S1x8 S2 S3 [0] [0] [0, 1] 0
  dot_S512x4096_S8x4096_S512x8_1_1_0_0_n_n_wf : DotDims.WF S512x4096 S8x4096 S512x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4094.size a ≤ S4096x4094.size a
  hwx0_3 : ∀ i : grid0.Coords, EltTy.bits .f32 = 32 ∨ (Rect.block (s := S4096x4094) S512x4094.size (cc0_transform_3 i) (hinb0_3 i)).WholeWords (EltTy.packing .f32)

variable [Facts₀]

def scatter_S8x4096_S1_S3x4096_01_n_0_0 : ScatterDims S8x4096 S1 S3x4096 where
  updateWindowDims := [0, 1]
  insertedWindowDims := []
  scatterDimsToOperandDims := [0]
  indexVectorDim := 0
  wf := scatter_S8x4096_S1_S3x4096_01_n_0_0_wf
def scatter_S1x8_S2_S3_0_0_01_0 : ScatterDims S1x8 S2 S3 where
  updateWindowDims := [0]
  insertedWindowDims := [0]
  scatterDimsToOperandDims := [0, 1]
  indexVectorDim := 0
  wf := scatter_S1x8_S2_S3_0_0_01_0_wf
def dot_S512x4096_S8x4096_S512x8_1_1_0_0_n_n : DotDims S512x4096 S8x4096 S512x8 where
  lhsContracting := [1]
  rhsContracting := [1]
  lhsNonContracting := [0]
  rhsNonContracting := [0]
  lhsBatch := []
  rhsBatch := []
  wf := dot_S512x4096_S8x4096_S512x8_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x4094.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4094x4096 : Shape := ⟨2, ![4094, 4096]⟩
abbrev S4094 : Shape := ⟨1, ![4094]⟩
abbrev S3x4096 : Shape := ⟨2, ![3, 4096]⟩
abbrev S4096x3 : Shape := ⟨2, ![4096, 3]⟩
abbrev S3 : Shape := ⟨1, ![3]⟩
abbrev S_ : Shape := ⟨0, ![]⟩
abbrev S1x3 : Shape := ⟨2, ![1, 3]⟩
abbrev S4096x4094 : Shape := ⟨2, ![4096, 4094]⟩
abbrev S1 : Shape := ⟨1, ![1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4094x4096, .f32⟩
  | .hbm, ⟨2, _⟩ => ⟨S4094, .f32⟩
  | .hbm, ⟨3, _⟩ => ⟨S3x4096, .f32⟩
  | .hbm, ⟨4, _⟩ => ⟨S4096x3, .f32⟩
  | .hbm, ⟨5, _⟩ => ⟨S4096x3, .f32⟩
  | .hbm, ⟨6, _⟩ => ⟨S3, .f32⟩
  | .hbm, ⟨7, _⟩ => ⟨S_, .f32⟩
  | .hbm, ⟨8, _⟩ => ⟨S3, .f32⟩
  | .hbm, ⟨9, _⟩ => ⟨S3, .f32⟩
  | .hbm, ⟨10, _⟩ => ⟨S1x3, .f32⟩
  | .hbm, ⟨11, _⟩ => ⟨S4096x3, .f32⟩
  | .hbm, ⟨12, _⟩ => ⟨S4096x3, .f32⟩
  | .hbm, ⟨13, _⟩ => ⟨S_, .f32⟩
  | .hbm, ⟨14, _⟩ => ⟨S4096x4094, .f32⟩
  | .hbm, ⟨15, _⟩ => ⟨S_, .i32⟩
  | .hbm, ⟨16, _⟩ => ⟨S1, .i32⟩
  | .hbm, ⟨17, _⟩ => ⟨S4096x4094, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  slices_S4094x4096_S3x4096_0_0 : S4094x4096.Slices ![0, 0] S3x4096
  transposes_S3x4096_S4096x3_1_0 : S3x4096.Transposes [1, 0] S4096x3
  slices_S4094_S3_0 : S4094.Slices ![0] S3
  bcast_S_S3 : S_.BroadcastsInDim S3 (![] : Fin 0 → Fin S3.rank)
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  bcast_S_S4096x4094 : S_.BroadcastsInDim S4096x4094 (![] : Fin 0 → Fin S4096x4094.rank)
  bcast_S_S1 : S_.BroadcastsInDim S1 (![] : Fin 0 → Fin S1.rank)
  dot_S4096x4096_S4096x3_S4096x3_1_0_0_1_n_n_wf : DotDims.WF S4096x4096 S4096x3 S4096x3 [1] [0] [0] [1] [] []
  scatter_S4096x4094_S1_S4096x3_01_n_1_0_wf : ScatterDims.WF S4096x4094 S1 S4096x3 [0, 1] [] [1] 0

variable [Facts₀]

def dot_S4096x4096_S4096x3_S4096x3_1_0_0_1_n_n : DotDims S4096x4096 S4096x3 S4096x3 where
  lhsContracting := [1]
  rhsContracting := [0]
  lhsNonContracting := [0]
  rhsNonContracting := [1]
  lhsBatch := []
  rhsBatch := []
  wf := dot_S4096x4096_S4096x3_S4096x3_1_0_0_1_n_n_wf
def scatter_S4096x4094_S1_S4096x3_01_n_1_0 : ScatterDims S4096x4094 S1 S4096x3 where
  updateWindowDims := [0, 1]
  insertedWindowDims := []
  scatterDimsToOperandDims := [1]
  indexVectorDim := 0
  wf := scatter_S4096x4094_S1_S4096x3_01_n_1_0_wf

class Facts : Prop extends Facts₀ where

variable [Facts]
-- ==== Proof.Payload.lean ====
/-
  The kernel body's arithmetic, read at an index over the extended reals.

  The body forms, from a 512-row block `x` of the input, the 8-row padded weight `w` and the 1×8 padded bias `b`,
  the 512×8 array  (p, r) ↦ Σₙ x(p,n)·w(r,n) + b(0,r)  — a matrix product into a zero accumulator, then the bias row
  added to every row — and widens it with 120 zero columns to 512×128. The rest of the output block is zeros.
-/
import proofs.«103411_j60662118089241_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The matrix product's index maps, axis by axis

The product contracts axis 1 of the block with axis 1 of the weight; the result's row is the block's row and its
column the weight's row. -/

theorem lhs_row (i : S512x8.Idx) (q : dot_S512x4096_S8x4096_S512x8_1_1_0_0_n_n.contr.Idx) : (dot_S512x4096_S8x4096_S512x8_1_1_0_0_n_n.lhsIdx i q 0).val = (i 0).val := by
  unfold DotDims.lhsIdx
  rw [dif_neg (show ¬(0 : Fin S512x4096.rank) ∈ dot_S512x4096_S8x4096_S512x8_1_1_0_0_n_n.lhsBatch by decide),
    dif_pos (show (0 : Fin S512x4096.rank) ∈ dot_S512x4096_S8x4096_S512x8_1_1_0_0_n_n.lhsNonContracting by decide)]
  rfl

theorem lhs_feature (i : S512x8.Idx) (q : dot_S512x4096_S8x4096_S512x8_1_1_0_0_n_n.contr.Idx) : (dot_S512x4096_S8x4096_S512x8_1_1_0_0_n_n.lhsIdx i q 1).val = (q ⟨0, by decide⟩).val :=
  dot_S512x4096_S8x4096_S512x8_1_1_0_0_n_n.lhsIdx_val_of_single rfl i q

theorem rhs_row (i : S512x8.Idx) (q : dot_S512x4096_S8x4096_S512x8_1_1_0_0_n_n.contr.Idx) : (dot_S512x4096_S8x4096_S512x8_1_1_0_0_n_n.rhsIdx i q 0).val = (i 1).val := by
  unfold DotDims.rhsIdx
  rw [dif_neg (show ¬(0 : Fin S8x4096.rank) ∈ dot_S512x4096_S8x4096_S512x8_1_1_0_0_n_n.rhsBatch by decide),
    dif_pos (show (0 : Fin S8x4096.rank) ∈ dot_S512x4096_S8x4096_S512x8_1_1_0_0_n_n.rhsNonContracting by decide)]
  rfl

theorem rhs_feature (i : S512x8.Idx) (q : dot_S512x4096_S8x4096_S512x8_1_1_0_0_n_n.contr.Idx) : (dot_S512x4096_S8x4096_S512x8_1_1_0_0_n_n.rhsIdx i q 1).val = (q ⟨0, by decide⟩).val :=
  dot_S512x4096_S8x4096_S512x8_1_1_0_0_n_n.rhsIdx_val_of_single rfl i q

/-- The product of the input block with the padded weight, transposed, at `(p, r)`: the sum over the 4096 features
    of `x(p,n) · w(r,n)` — the matrix product into the zero accumulator is just the sum, and its one contracted
    axis is re-indexed by the feature number. -/
theorem product_apply (x : FVec Ideal S512x4096 .f32) (w : FVec Ideal S8x4096 .f32) (p : Fin 512) (r : Fin 8) :
    matmul dot_S512x4096_S8x4096_S512x8_1_1_0_0_n_n (some .fp32) x w (constant (F := Ideal) S512x8 .f32 0x00000000#32) (ix2 p r)
      = ∑ n : Fin 4096, x (ix2 p n) * w (ix2 r n) := by
  simp only [matmul]
  rw [Ideal.matmul_constant_zero_apply, ← Equiv.sum_comp (contrEquiv1 dot_S512x4096_S8x4096_S512x8_1_1_0_0_n_n 4096 rfl rfl).symm]
  refine Finset.sum_congr rfl fun k _ => ?_
  have hk := contrEquiv1_symm_val dot_S512x4096_S8x4096_S512x8_1_1_0_0_n_n 4096 rfl rfl k
  have el : dot_S512x4096_S8x4096_S512x8_1_1_0_0_n_n.lhsIdx (ix2 p r) ((contrEquiv1 dot_S512x4096_S8x4096_S512x8_1_1_0_0_n_n 4096 rfl rfl).symm k) = ix2 p k :=
    funext fun a => Fin.ext (by
      match a with
      | ⟨0, _⟩ => exact lhs_row _ _
      | ⟨1, _⟩ => exact (lhs_feature _ _).trans hk)
  have er : dot_S512x4096_S8x4096_S512x8_1_1_0_0_n_n.rhsIdx (ix2 p r) ((contrEquiv1 dot_S512x4096_S8x4096_S512x8_1_1_0_0_n_n 4096 rfl rfl).symm k) = ix2 r k :=
    funext fun a => Fin.ext (by
      match a with
      | ⟨0, _⟩ => exact rhs_row _ _
      | ⟨1, _⟩ => exact (rhs_feature _ _).trans hk)
  rw [el, er]

/-! ## The two stored values at an index -/

/-- THE FIRST STORE, left of column 8: the product's entry plus the bias row's entry. Column `q < 8` of the widened
    array lies in its first piece; the bias row is broadcast down the 512 rows. -/
theorem pay1_left (x : Vec Ideal S512x4096 .f32) (w : Vec Ideal S8x4096 .f32) (b : Vec Ideal S1x8 .f32)
    (p : Fin 512) (q : Fin 128) (h : q.val < 8) :
    k0_pay1 (F := Ideal) x w b (ix2 p q)
      = (∑ n : Fin 4096, x (ix2 p n) * w (ix2 (⟨q.val, h⟩ : Fin 8) n)) + b (ix2 (0 : Fin 1) (⟨q.val, h⟩ : Fin 8)) := by
  unfold k0_pay1
  refine (concatenate_pair_apply_left (1 : Fin S512x128.rank) _ _ concatenates_S512x8_S512x120_S512x128_d1 (ix2 p q) rfl
    (ix2 p (⟨q.val, h⟩ : Fin 8)) (fun a => by match a with | ⟨0, _⟩ => rfl | ⟨1, _⟩ => rfl)).trans ?_
  rw [addf_apply]
  simp only [shapeCast_self]
  rw [product_apply]
  refine congrArg (_ + ·) ?_
  exact broadcastTo_apply _ broadcasts_S1x8_S512x8 (ix2 p (⟨q.val, h⟩ : Fin 8)) (ix2 (0 : Fin 1) (⟨q.val, h⟩ : Fin 8))
    (fun a => by
      match a with
      | ⟨0, _⟩ => show 0 = if (1 : Nat) = 1 then 0 else _; rw [if_pos rfl]
      | ⟨1, _⟩ => show q.val = if (8 : Nat) = 1 then 0 else q.val; rw [if_neg (by decide)])

/-- THE FIRST STORE, from column 8 on: the zero fill (the widened array's second piece). -/
theorem pay1_right (x : Vec Ideal S512x4096 .f32) (w : Vec Ideal S8x4096 .f32) (b : Vec Ideal S1x8 .f32)
    (p : Fin 512) (q : Fin 128) (h : ¬q.val < 8) :
    k0_pay1 (F := Ideal) x w b (ix2 p q) = 0 := by
  unfold k0_pay1
  refine (concatenate_pair_apply_right (1 : Fin S512x128.rank) _ _ concatenates_S512x8_S512x120_S512x128_d1 (ix2 p q) rfl rfl
    (ix2 p (⟨q.val - 8, by have := q.isLt; omega⟩ : Fin 120))
    (fun a ha => by match a with | ⟨0, _⟩ => rfl | ⟨1, _⟩ => exact absurd rfl ha)
    (by show (q.val - 8) + 8 = q.val; omega)).trans ?_
  exact Ideal.ofBits_zero_f32

/-- THE SECOND STORE is the zero fill everywhere. -/
theorem pay2_apply (j : S512x3966.Idx) : k0_pay2 (F := Ideal) j = 0 := by
  unfold k0_pay2
  exact Ideal.ofBits_zero_f32

end Cert.KernelIdeal.Body

end
-- ==== Proof.Block.lean ====
/-
  What one grid point leaves in the output's staging buffer, as one function of its three input blocks.

  The body stores twice, into disjoint rectangles that together fill the 512×4094 block: columns 0–127 get the
  widened product-plus-bias, columns 128–4093 get zeros. Both stored values are restrictions of ONE function of the
  block index `(p, q)`:  Σₙ x(p,n)·w(q,n) + b(0,q)  for `q < 8`,  and  0  for `q ≥ 8`.  A buffer filled by pieces that
  all restrict one function holds that function.
-/
import proofs.«103411_j60662118089241_2_alg».proof.Proof.Payload
import proofs.«103411_j60662118089241_2_alg».proof.Proof.Gen.KernelIdeal.Frame
import Idealize.ShloMosaic.Lib.Tactic

noncomputable section

namespace Cert.KernelIdeal.Body

open Cert.KernelIdeal Cert.KernelIdeal.Gen Idealize.ShloMosaic Idealize.ShloMosaic.ValueIdx
open Idealize.ShloMosaic.TcCoe Idealize.SL.Sem

/-- The entry at row `p`, column `q` of the block a point leaves. -/
def entry (x : Vec Ideal S512x4096 .f32) (w : Vec Ideal S8x4096 .f32) (b : Vec Ideal S1x8 .f32)
    (p : Fin 512) (q : Fin 4094) : EReal :=
  if h : q.val < 8 then
    (∑ n : Fin 4096, x (ix2 p n) * w (ix2 (⟨q.val, h⟩ : Fin 8) n)) + b (ix2 (0 : Fin 1) (⟨q.val, h⟩ : Fin 8))
  else 0

/-- The block a point leaves, as a function of the block index. -/
def blockFn (x : Vec Ideal S512x4096 .f32) (w : Vec Ideal S8x4096 .f32) (b : Vec Ideal S1x8 .f32) :
    S512x4094.Idx → EReal :=
  fun y => entry x w b (y 0) (y 1)

theorem blockFn_ix2 (x : Vec Ideal S512x4096 .f32) (w : Vec Ideal S8x4096 .f32) (b : Vec Ideal S1x8 .f32)
    (p : Fin 512) (q : Fin 4094) : blockFn x w b (ix2 p q) = entry x w b p q := rfl

/-- Where the first store's rectangle (512×128 at the block's origin) puts its local index. -/
theorem emb_first (p : Fin 512) (q : Fin 128) :
    (Rect.unit (s := S512x4094) ![0, 0] ![512, 128] inb_S512x4094_S512x128_0_0).emb (ix2 p q)
      = ix2 p (⟨q.val, by have := q.isLt; omega⟩ : Fin 4094) :=
  funext fun a => Fin.ext (by
    match a with
    | ⟨0, _⟩ => show 0 + 1 * p.val = p.val; omega
    | ⟨1, _⟩ => show 0 + 1 * q.val = q.val; omega)

/-- Where the second store's rectangle (512×3966, 128 columns in) puts its local index. -/
theorem emb_second (p : Fin 512) (q : Fin 3966) :
    (Rect.unit (s := S512x4094) ![0, 128] ![512, 3966] inb_S512x4094_S512x3966_0_128).emb (ix2 p q)
      = ix2 p (⟨128 + q.val, by have := q.isLt; omega⟩ : Fin 4094) :=
  funext fun a => Fin.ext (by
    match a with
    | ⟨0, _⟩ => show 0 + 1 * p.val = p.val; omega
    | ⟨1, _⟩ => show 128 + 1 * q.val = 128 + q.val; omega)

/-- The first stored value is the block function on its rectangle. -/
theorem first_restricts (x : Vec Ideal S512x4096 .f32) (w : Vec Ideal S8x4096 .f32) (b : Vec Ideal S1x8 .f32)
    (j : S512x128.Idx) :
    k0_pay1 (F := Ideal) x w b j
      = blockFn x w b ((Rect.unit (s := S512x4094) ![0, 0] ![512, 128] inb_S512x4094_S512x128_0_0).emb j) := by
  obtain ⟨p, q, rfl⟩ : ∃ (p : Fin 512) (q : Fin 128), j = ix2 p q := ⟨j 0, j 1, eq_ix2 j⟩
  rw [emb_first, blockFn_ix2]
  unfold entry
  by_cases h : q.val < 8
  · rw [dif_pos h]; exact pay1_left x w b p q h
  · rw [dif_neg h]; exact pay1_right x w b p q h

/-- The second stored value is the block function on its rectangle: zero, the columns being past the eighth. -/
theorem second_restricts (x : Vec Ideal S512x4096 .f32) (w : Vec Ideal S8x4096 .f32) (b : Vec Ideal S1x8 .f32)
    (j : S512x3966.Idx) :
    k0_pay2 (F := Ideal) j
      = blockFn x w b ((Rect.unit (s := S512x4094) ![0, 128] ![512, 3966] inb_S512x4094_S512x3966_0_128).emb j) := by
  obtain ⟨p, q, rfl⟩ : ∃ (p : Fin 512) (q : Fin 3966), j = ix2 p q := ⟨j 0, j 1, eq_ix2 j⟩
  rw [emb_second, blockFn_ix2, pay2_apply]
  unfold entry
  rw [dif_neg (by show ¬(128 + q.val < 8); omega)]

theorem hz : (![0, 0] : Fin 2 → Nat) = fun _ => 0 := funext fun a => by fin_cases a <;> rfl

/-- WHAT THE BODY LEAVES in the output's staging buffer, on any staging memrefs holding the blocks `x`, `w`, `b`:
    the block function — the run's two pieces cover the buffer and each restricts it. -/
theorem out_eq (c : Dev nD) (i : grid0.Coords) (a1 : Memref sig .tc .vmem S512x4096 .f32) (h1 : a1.IsWhole)
    (a2 : Memref sig .tc .vmem S8x4096 .f32) (h2 : a2.IsWhole) (a3 : Memref sig .tc .vmem S1x8 .f32) (h3 : a3.IsWhole)
    (a4 : Memref sig .tc .vmem S512x4094 .f32) (h4 : a4.IsWhole)
    (x : Vec Ideal S512x4096 .f32) (w : Vec Ideal S8x4096 .f32) (b : Vec Ideal S1x8 .f32) :
    out0_A_3 (F := Ideal) c i a1 h1 a2 h2 a3 h3 a4 h4 x w b = blockFn x w b := by
  unfold out0_A_3
  rw [View.read_writes_eq_canon _ _ _ (cover0_A_3 c i a1 h1 a2 h2 a3 h3 a4 h4 x w b)]
  funext y
  refine View.canon_apply_of_pieces (blockFn x w b) _ ?_ y (cover0_A_3 c i a1 h1 a2 h2 a3 h3 a4 h4 x w b y)
  unfold kernelRun0_A
  dsimp only
  sl_unfold_words
  simp only [View.readAt_eq_ld, h1.read_unread, h2.read_unread, h3.read_unread,
    View.ld_unit_zero (S := S512x4096) hz, View.ld_unit_zero (S := S8x4096) hz, View.ld_unit_zero (S := S1x8) hz]
  intro pc hpc
  rcases List.mem_cons.mp hpc with rfl | hpc
  · exact fun j => second_restricts x w b j
  · rcases List.mem_cons.mp hpc with rfl | hpc
    · exact fun j => first_restricts x w b j
    · exact absurd hpc List.not_mem_nil

end Cert.KernelIdeal.Body

end
-- ==== Proof.Spec.lean ====
/-
  The result both programs compute, as one function of the three argument arrays.

  For input `X` (4096×4096), weight `W` (4094×4096) and bias `B` (4094), the result is the 4096×4094 array whose
  first three columns are   (p, q) ↦ Σₙ X(p,n)·W(q,n) + 4096·B(q)   and whose other columns are zero.
  The number 4096 enters as the value of the float word `0x45800000`, the same word in both programs.
-/
import Idealize.ShloMosaic.PureOps.Ideal
import Idealize.ShloMosaic.Lib.ValueIdx

noncomputable section

namespace Cert.Spec

open Idealize.ShloMosaic Idealize.ShloMosaic.ValueIdx

/-- The result's entry at row `p`, column `q`. -/
def out (X : (⟨2, ![4096, 4096]⟩ : Shape).Idx → EReal) (W : (⟨2, ![4094, 4096]⟩ : Shape).Idx → EReal)
    (B : (⟨1, ![4094]⟩ : Shape).Idx → EReal) (p : Fin 4096) (q : Fin 4094) : EReal :=
  if q.val < 3 then
    (∑ n : Fin 4096, X (ix2 p n) * W (ix2 q n)) + Ideal.ofBits .f32 0x45800000#32 * B (ix1 q)
  else 0

/-- The result array. -/
def G (X : (⟨2, ![4096, 4096]⟩ : Shape).Idx → EReal) (W : (⟨2, ![4094, 4096]⟩ : Shape).Idx → EReal)
    (B : (⟨1, ![4094]⟩ : Shape).Idx → EReal) : (⟨2, ![4096, 4094]⟩ : Shape).Idx → EReal :=
  fun i => out X W B (i 0) (i 1)

theorem G_ix2 (X : (⟨2, ![4096, 4096]⟩ : Shape).Idx → EReal) (W : (⟨2, ![4094, 4096]⟩ : Shape).Idx → EReal)
    (B : (⟨1, ![4094]⟩ : Shape).Idx → EReal) (p : Fin 4096) (q : Fin 4094) :
    G X W B (ix2 p q) = out X W B p q := rfl

end Cert.Spec

end
-- ==== Proof.Bridge.lean ====
/-
  The block a grid point leaves is the specified array's block.

  Take the point's input block to be rows T·512 … T·512+511 of the input, the padded weight to be the weight's rows
  0–2 over five zero rows, and the padded bias to be 4096 times the bias's entries 0–2 over five zeros. Then at
  `(p, q)` the block holds the specified entry at `(T·512 + p, q)`:
    q < 3       the same sum over the features plus the same scaled bias entry;
    3 ≤ q < 8   Σₙ x(p,n)·0 + 0 = 0 — a product with zero is zero on the extended reals, infinities included, so
                no finiteness of the input is used;
    q ≥ 8       zero on both sides.
-/
import proofs.«103411_j60662118089241_2_alg».proof.Proof.Block
import proofs.«103411_j60662118089241_2_alg».proof.Proof.Spec

noncomputable section

namespace Cert.KernelIdeal.Body

open Cert.KernelIdeal Idealize.ShloMosaic Idealize.ShloMosaic.ValueIdx

theorem entry_eq_out (X : (⟨2, ![4096, 4096]⟩ : Shape).Idx → EReal) (W : (⟨2, ![4094, 4096]⟩ : Shape).Idx → EReal)
    (B : (⟨1, ![4094]⟩ : Shape).Idx → EReal)
    (x : Vec Ideal S512x4096 .f32) (w : Vec Ideal S8x4096 .f32) (b : Vec Ideal S1x8 .f32) (T : Nat) (hT : T < 8)
    (hx : ∀ (p : Fin 512) (n : Fin 4096),
      x (ix2 p n) = X (ix2 (⟨T * 512 + p.val, by have := p.isLt; omega⟩ : Fin 4096) n))
    (hw : ∀ (r : Fin 8) (n : Fin 4096),
      w (ix2 r n) = (if h : r.val < 3 then W (ix2 (⟨r.val, by omega⟩ : Fin 4094) n) else 0 : EReal))
    (hb : ∀ r : Fin 8,
      b (ix2 (0 : Fin 1) r)
        = (if h : r.val < 3 then Ideal.ofBits .f32 0x45800000#32 * B (ix1 (⟨r.val, by omega⟩ : Fin 4094)) else 0 : EReal))
    (p : Fin 512) (q : Fin 4094) :
    entry x w b p q = Cert.Spec.out X W B (⟨T * 512 + p.val, by have := p.isLt; omega⟩ : Fin 4096) q := by
  unfold entry Cert.Spec.out
  by_cases h8 : q.val < 8
  · rw [dif_pos h8]
    by_cases h3 : q.val < 3
    · rw [if_pos h3, hb, dif_pos h3]
      refine congrArg₂ (· + ·) (Finset.sum_congr rfl fun n _ => ?_) rfl
      rw [hx, hw, dif_pos h3]
    · rw [if_neg h3, hb, dif_neg h3, add_zero]
      refine Finset.sum_eq_zero fun n _ => ?_
      rw [hw, dif_neg h3, mul_zero]
  · rw [dif_neg h8, if_neg (by omega)]

end Cert.KernelIdeal.Body

end
-- ==== Proof.LibScatter.lean ====
/-
  A host `scatter` whose body returns the update (`x.at[…].set(v)`), read at an index.

  The scatter is a left fold over the update indices: each update that lands inside the operand overwrites the
  element it lands on. So the element at `i` after the fold is decided by the updates landing on `i` alone: when
  all of them carry one value `c`, and either the operand holds `c` at `i` already or at least one update lands
  there, the result at `i` is `c`. Two readings follow for a scatter whose update `j` lands at `e j`:
  inside the image of an injective `e` the result is the update, outside it the operand.
-/
import Idealize.ShloMosaic.PureOps.ShapeOps

namespace Idealize.ShloMosaic

variable {α : Type} {ι κ : Type} [DecidableEq κ]

/-- One step of an overwriting fold: the update `n` replaces the element at `g n`, when it lands. -/
def setStep (g : ι → Option κ) (v : ι → α) (r : κ → α) (n : ι) : κ → α :=
  match g n with
  | some i => fun i' => if i' = i then v n else r i'
  | none => r

theorem setStep_apply_of_some (g : ι → Option κ) (v : ι → α) (r : κ → α) (n : ι) (i : κ) (h : g n = some i) :
    setStep g v r n i = v n := by
  unfold setStep; rw [h]; exact if_pos rfl

theorem setStep_apply_of_ne (g : ι → Option κ) (v : ι → α) (r : κ → α) (n : ι) (i : κ) (h : g n ≠ some i) :
    setStep g v r n i = r i := by
  unfold setStep
  cases hg : g n with
  | none => rfl
  | some i₀ =>
    have hne : i ≠ i₀ := fun e => h (by rw [hg, e])
    exact if_neg hne

/-- The overwriting fold at `i`: if every update of the list landing on `i` carries `c`, and the start holds
    `c` at `i` or some update of the list lands on `i`, the fold ends with `c` at `i`. -/
theorem foldl_setStep_apply (g : ι → Option κ) (v : ι → α) (i : κ) (c : α) :
    ∀ (L : List ι) (r : κ → α), (∀ n ∈ L, g n = some i → v n = c) → (r i = c ∨ ∃ n ∈ L, g n = some i) →
      L.foldl (setStep g v) r i = c
  | [], r, _, h => by
    rcases h with h | ⟨n, hn, _⟩
    · exact h
    · exact absurd hn List.not_mem_nil
  | n :: L, r, hall, h => by
    rw [List.foldl_cons]
    refine foldl_setStep_apply g v i c L _ (fun n' hn' => hall n' (List.mem_cons_of_mem _ hn')) ?_
    by_cases hg : g n = some i
    · exact Or.inl ((setStep_apply_of_some g v r n i hg).trans (hall n List.mem_cons_self hg))
    · rw [setStep_apply_of_ne g v r n i hg]
      rcases h with h | ⟨n', hn', hg'⟩
      · exact Or.inl h
      · rcases List.mem_cons.mp hn' with rfl | hn''
        · exact absurd hg' hg
        · exact Or.inr ⟨n', hn'', hg'⟩

variable {s si u : Shape} {w : Nat}

/-- The host scatter with the overwriting body is the overwriting fold over the update indices in row-major order. -/
theorem Host.scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  dsimp only
  generalize d.resultIdx? (u.rowMajor.symm n) idx = o
  cases o <;> rfl

/-- THE ELEMENT AT `i` of an overwriting scatter: `c`, when every update landing on `i` carries `c` and the
    operand holds `c` there or some update lands there. -/
theorem Host.scatter_set_apply (d : ScatterDims s si u) (x : s.Idx → α) (idx : IVec si w) (upd : u.Idx → α)
    (i : s.Idx) (c : α) (hall : ∀ j : u.Idx, d.resultIdx? j idx = some i → upd j = c)
    (hex : x i = c ∨ ∃ j : u.Idx, d.resultIdx? j idx = some i) :
    Host.scatter d (fun _ b => b) x idx upd i = c := by
  rw [Host.scatter_set_eq_foldl]
  refine foldl_setStep_apply _ _ i c _ x (fun n _ hn => hall _ hn) ?_
  rcases hex with h | ⟨j, hj⟩
  · exact Or.inl h
  · exact Or.inr ⟨u.rowMajor j, List.mem_finRange _, by rw [Equiv.symm_apply_apply]; exact hj⟩

/-- When update `j` lands at `e j` and `e` is injective, the scatter at `e j` is the update at `j`; -/
theorem Host.scatter_set_apply_emb (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j :=
  Host.scatter_set_apply d x idx upd (e j) (upd j)
    (fun j' hj' => by
      rw [he j'] at hj'
      rw [hinj (Option.some.inj hj')])
    (Or.inr ⟨j, he j⟩)

/-- and at an index no update lands at, the operand. -/
theorem Host.scatter_set_apply_off (d : ScatterDims s si u) (x : s.Idx → α) (idx : IVec si w) (upd : u.Idx → α)
    (e : u.Idx → s.Idx) (he : ∀ j, d.resultIdx? j idx = some (e j)) (i : s.Idx) (hi : ∀ j, e j ≠ i) :
    Host.scatter d (fun _ b => b) x idx upd i = x i :=
  Host.scatter_set_apply d x idx upd i (x i)
    (fun j hj => by
      rw [he j] at hj
      exact absurd (Option.some.inj hj) (hi j))
    (Or.inl rfl)

/-! ## Where an update lands when every start index is zero -/

/-- With every scatter index zero, the window starts at zero on every axis of the operand. -/
theorem ScatterDims.start_eq_zero (d : ScatterDims s si u) (j : u.Idx) (idx : IVec si w) (hidx : ∀ k, idx k = 0#w)
    (a : Fin s.rank) : d.start j idx a = 0 := by
  unfold ScatterDims.start
  split
  · rw [hidx]; exact BitVec.toInt_zero
  · rfl

/-- So update `j` lands at the operand index whose coordinates are `j`'s window coordinates: at `e`, when
    `e`'s coordinate on each axis is the window coordinate there. -/
theorem ScatterDims.resultIdx?_eq_some_of_zero (d : ScatterDims s si u) (j : u.Idx) (idx : IVec si w)
    (hidx : ∀ k, idx k = 0#w) (e : s.Idx) (h : ∀ a, d.window j a = (e a).val) :
    d.resultIdx? j idx = some e := by
  have hs : ∀ a, d.start j idx a + (d.window j a : Int) = ((e a).val : Int) := fun a => by
    rw [d.start_eq_zero j idx hidx a, h a, zero_add]
  unfold ScatterDims.resultIdx?
  rw [dif_pos (fun a => by
    rw [hs a]
    exact ⟨Int.natCast_nonneg _, by exact_mod_cast (e a).isLt⟩)]
  refine congrArg some (funext fun a => Fin.ext ?_)
  show (d.start j idx a + (d.window j a : Int)).toNat = (e a).val
  rw [hs a]
  exact Int.toNat_natCast _

end Idealize.ShloMosaic
-- ==== Proof.HostPrefix.lean ====
/-
  The two small arrays the host builds before the kernel is launched, read at an index.

  The padded weight is an 8×4096 array of zeros with rows 0–2 overwritten by rows 0–2 of the weight; the padded bias
  is a 1×8 array of zeros with entries 0–2 overwritten by 4096 times entries 0–2 of the bias. Each overwrite is a
  scatter at the all-zero start index, so update `j` lands at `j`'s own coordinates.
-/
import proofs.«103411_j60662118089241_2_alg».proof.Proof.LibScatter
import proofs.«103411_j60662118089241_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Prefix

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ)

/-! ## The padded weight -/

/-- Where weight-row update `(r, n)` lands in the 8×4096 array: at `(r, n)`. -/
def wLand (j : S3x4096.Idx) : S8x4096.Idx :=
  ix2 (⟨(j 0).val, by have h : (j 0).val < 3 := (j 0).isLt; omega⟩ : Fin 8) (j 1)

theorem wLand_inj : Function.Injective wLand := fun j j' h => funext fun a => Fin.ext (by
  match a with
  | ⟨0, _⟩ =>
    have e : (wLand j 0).val = (wLand j' 0).val := congrArg Fin.val (congrFun h 0)
    exact e
  | ⟨1, _⟩ =>
    have e : (wLand j 1).val = (wLand j' 1).val := congrArg Fin.val (congrFun h 1)
    exact e)

theorem wLand_lands (idx : IVec S1 32) (hidx : ∀ k, idx k = 0#32) (j : S3x4096.Idx) :
    scatter_S8x4096_S1_S3x4096_01_n_0_0.resultIdx? j idx = some (wLand j) :=
  ScatterDims.resultIdx?_eq_some_of_zero _ j idx hidx (wLand j) (fun a => by
    match a with
    | ⟨0, _⟩ => rfl
    | ⟨1, _⟩ => rfl)

/-- The padded weight, as the operations that build it. -/
theorem wpad_term (c : Dev nD) : (V m c main_v3 : S8x4096.Idx → EReal) =
    Host.scatter scatter_S8x4096_S1_S3x4096_01_n_0_0 (fun _ b => b)
      (broadcastInDim S8x4096 ![] bcast_S_S8x4096 (constant (F := Ideal) S_ .f32 0x00000000#32))
      (broadcastInDim S1 ![] bcast_S_S1 (constantI S_ 32 0#32))
      (extractStridedSlice S3x4096 ![0, 0] (m ((c : Thread nD τ).loc main_arg1)) slices_S4094x4096_S3x4096_0_0) := by
  dsimp only [Gen.V, Gen.hostOps0]
  after_results

/-- THE PADDED WEIGHT at `(r, n)`: the weight's entry for `r < 3`, zero below. -/
theorem wpad_apply (c : Dev nD) (r : Fin 8) (n : Fin 4096) :
    (V m c main_v3 : S8x4096.Idx → EReal) (ix2 r n)
      = (if h : r.val < 3 then
          (m ((c : Thread nD τ).loc main_arg1) : S4094x4096.Idx → EReal) (ix2 (⟨r.val, by omega⟩ : Fin 4094) n)
        else 0 : EReal) := by
  rw [wpad_term]
  have hidx : ∀ k : S1.Idx, broadcastInDim S1 ![] bcast_S_S1 (constantI S_ 32 0#32) k = 0#32 := fun k => rfl
  by_cases h : r.val < 3
  · rw [dif_pos h]
    have e : ix2 r n = wLand (ix2 (⟨r.val, h⟩ : Fin 3) n) := funext fun a => Fin.ext (by
      match a with
      | ⟨0, _⟩ => rfl
      | ⟨1, _⟩ => rfl)
    rw [e, Host.scatter_set_apply_emb _ _ _ _ wLand (wLand_lands _ hidx) wLand_inj]
    exact extractStridedSlice_apply ![0, 0] _ slices_S4094x4096_S3x4096_0_0 (ix2 (⟨r.val, h⟩ : Fin 3) n)
      (ix2 (⟨r.val, by omega⟩ : Fin 4094) n) (fun a => by
        match a with
        | ⟨0, _⟩ => show r.val = 0 + r.val; omega
        | ⟨1, _⟩ => show n.val = 0 + n.val; omega)
  · rw [dif_neg h, Host.scatter_set_apply_off _ _ _ _ wLand (wLand_lands _ hidx) (ix2 r n) (fun j hj => by
      have h0 : (wLand j 0).val = r.val := congrArg Fin.val (congrFun hj 0)
      have h1 : (j 0).val = r.val := h0
      have h2 : (j 0).val < 3 := (j 0).isLt
      omega)]
    exact Ideal.ofBits_zero_f32

/-! ## The padded bias -/

/-- Where bias update `r` lands in the 1×8 array: at `(0, r)`. -/
def bLand (j : S3.Idx) : S1x8.Idx :=
  ix2 (0 : Fin 1) (⟨(j 0).val, by have h : (j 0).val < 3 := (j 0).isLt; omega⟩ : Fin 8)

theorem bLand_inj : Function.Injective bLand := fun j j' h => funext fun a => Fin.ext (by
  match a with
  | ⟨0, _⟩ =>
    have e : (bLand j 1).val = (bLand j' 1).val := congrArg Fin.val (congrFun h 1)
    exact e)

theorem bLand_lands (idx : IVec S2 32) (hidx : ∀ k, idx k = 0#32) (j : S3.Idx) :
    scatter_S1x8_S2_S3_0_0_01_0.resultIdx? j idx = some (bLand j) :=
  ScatterDims.resultIdx?_eq_some_of_zero _ j idx hidx (bLand j) (fun a => by
    match a with
    | ⟨0, _⟩ => rfl
    | ⟨1, _⟩ => rfl)

/-- The two-component start index of the bias overwrite: two zeros side by side. -/
abbrev bStart : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

theorem bStart_zero (k : S2.Idx) : bStart k = 0#32 := by
  obtain ⟨k0, rfl⟩ : ∃ k0 : Fin 2, k = ix1 k0 := ⟨k 0, eq_ix1 k⟩
  match k0 with
  | ⟨0, _⟩ =>
    exact (concatenate_pair_apply_left (0 : Fin S2.rank) _ _ concatenates_S1_S1_S2_d0 _ rfl (ix1 (0 : Fin 1))
      (fun b => by match b with | ⟨0, _⟩ => rfl)).trans rfl
  | ⟨1, _⟩ =>
    exact (concatenate_pair_apply_right (0 : Fin S2.rank) _ _ concatenates_S1_S1_S2_d0 _ rfl rfl (ix1 (0 : Fin 1))
      (fun b hb => by match b with | ⟨0, _⟩ => exact absurd rfl hb) rfl).trans rfl

/-- The padded bias, as the operations that build it. -/
theorem bpad_term (c : Dev nD) : (V m c main_v11 : S1x8.Idx → EReal) =
    Host.scatter scatter_S1x8_S2_S3_0_0_01_0 (fun _ b => b)
      (broadcastInDim S1x8 ![] bcast_S_S1x8 (constant (F := Ideal) S_ .f32 0x00000000#32))
      bStart
      (mulf (broadcastInDim S3 ![] bcast_S_S3 (constant (F := Ideal) S_ .f32 0x45800000#32))
        (extractStridedSlice S3 ![0] (m ((c : Thread nD τ).loc main_arg2)) slices_S4094_S3_0)) := by
  dsimp only [Gen.V, Gen.hostOps0]
  after_results

/-- THE PADDED BIAS at `(0, r)`: 4096 times the bias's entry for `r < 3`, zero beyond. -/
theorem bpad_apply (c : Dev nD) (r : Fin 8) :
    (V m c main_v11 : S1x8.Idx → EReal) (ix2 (0 : Fin 1) r)
      = (if h : r.val < 3 then
          Ideal.ofBits .f32 0x45800000#32
            * (m ((c : Thread nD τ).loc main_arg2) : S4094.Idx → EReal) (ix1 (⟨r.val, by omega⟩ : Fin 4094))
        else 0 : EReal) := by
  rw [bpad_term]
  by_cases h : r.val < 3
  · rw [dif_pos h]
    have e : ix2 (0 : Fin 1) r = bLand (ix1 (⟨r.val, h⟩ : Fin 3)) := funext fun a => Fin.ext (by
      match a with
      | ⟨0, _⟩ => rfl
      | ⟨1, _⟩ => rfl)
    rw [e, Host.scatter_set_apply_emb _ _ _ _ bLand (bLand_lands _ bStart_zero) bLand_inj, mulf_apply]
    refine congrArg (Ideal.ofBits .f32 0x45800000#32 * ·) ?_
    exact extractStridedSlice_apply ![0] _ slices_S4094_S3_0 (ix1 (⟨r.val, h⟩ : Fin 3))
      (ix1 (⟨r.val, by omega⟩ : Fin 4094)) (fun a => by
        match a with
        | ⟨0, _⟩ => show r.val = 0 + r.val; omega)
  · rw [dif_neg h, Host.scatter_set_apply_off _ _ _ _ bLand (bLand_lands _ bStart_zero) (ix2 (0 : Fin 1) r) (fun j hj => by
      have h0 : (bLand j 1).val = r.val := congrArg Fin.val (congrFun hj 1)
      have h1 : (j 0).val = r.val := h0
      have h2 : (j 0).val < 3 := (j 0).isLt
      omega)]
    exact Ideal.ofBits_zero_f32

end Cert.KernelIdeal.Prefix

end
-- ==== Proof.ArrayValue.lean ====
/-
  The kernel's result array after the run is the specified array.

  Grid point `t` (of 8) reads rows 512·t … 512·t+511 of the input and the whole padded weight and padded bias, and
  writes back rows 512·t … 512·t+511 of the result. What it writes back is the specified array read through that
  block; the eight blocks cover the 4096 rows; so the array ends holding the specified array.
-/
import proofs.«103411_j60662118089241_2_alg».proof.Proof.Bridge
import proofs.«103411_j60662118089241_2_alg».proof.Proof.HostPrefix
import proofs.«103411_j60662118089241_2_alg».proof.Proof.Gen.KernelIdeal.Value

noncomputable section

namespace Cert.KernelIdeal.ArrayValue

open Cert.KernelIdeal Cert.KernelIdeal.Gen Idealize.ShloMosaic Idealize.ShloMosaic.ValueIdx
open Idealize.ShloMosaic.TcCoe Idealize.SL.Sem
open Idealize.ShloMosaic.Pipeline (Dat)
open Cert.KernelIdeal.Body Cert.KernelIdeal.Prefix

variable (m : (ℓ : Loc nD τ sig) → Buf (Elt Ideal) ℓ) (ρ : Dev nD → PrngReg)

/-- The windows' block indices at grid point `t`: the input and the result move down one block of rows per point,
    the padded weight and bias stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 := by
  have hN : cfg0.N = 8 := N_0
  have := t.isLt
  omega

/-- The array row that row `p` of point `t`'s blocks is. -/
def row (t : Fin cfg0.N) (p : Fin 512) : Fin 4096 :=
  ⟨t.val * 512 + p.val, by have := point_lt t; have := p.isLt; omega⟩

/-! ## The three input blocks at a point -/

/-- The input's block at point `t` is rows 512·t … of the input. -/
theorem x_block (c : Dev nD) (t : Fin cfg0.N) (p : Fin 512) (n : Fin 4096) :
    (iblk m c 0 t : S512x4096.Idx → EReal) (ix2 p n)
      = (m ((c : Thread nD τ).loc main_arg0) : S4096x4096.Idx → EReal) (ix2 (row t p) n) := by
  obtain ⟨e0, e1, -⟩ := idx_facts t
  refine Eq.trans ?_ (congrFun (V_main_arg0 m c) (ix2 (row t p) n))
  show V m c main_arg0 (((cfg0.win 0).blk t).view.emb (ix2 p n)) = V m c main_arg0 (ix2 (row t p) n)
  refine congrArg (V m c main_arg0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 4096 + 1 * n.val = n.val; rw [e1]; omega

/-- The padded weight's block at any point is the whole padded weight. -/
theorem w_block (c : Dev nD) (t : Fin cfg0.N) (r : Fin 8) (n : Fin 4096) :
    (iblk m c 1 t : S8x4096.Idx → EReal) (ix2 r n) = (V m c main_v3 : S8x4096.Idx → EReal) (ix2 r n) := by
  obtain ⟨-, -, e2, e3, -⟩ := idx_facts t
  show V m c main_v3 (((cfg0.win 1).blk t).view.emb (ix2 r n)) = V m c main_v3 (ix2 r n)
  refine congrArg (V m c main_v3) (funext fun a => Fin.ext ?_)
  match a with
  | ⟨0, _⟩ => show win0_1.index t (0 : Fin 2) * 8 + 1 * r.val = r.val; rw [e2]; omega
  | ⟨1, _⟩ => show win0_1.index t (1 : Fin 2) * 4096 + 1 * n.val = n.val; rw [e3]; omega

/-- The padded bias's block at any point is the whole padded bias. -/
theorem b_block (c : Dev nD) (t : Fin cfg0.N) (r : Fin 8) :
    (iblk m c 2 t : S1x8.Idx → EReal) (ix2 (0 : Fin 1) r) = (V m c main_v11 : S1x8.Idx → EReal) (ix2 (0 : Fin 1) r) := by
  obtain ⟨-, -, -, -, e4, e5, -⟩ := idx_facts t
  show V m c main_v11 (((cfg0.win 2).blk t).view.emb (ix2 (0 : Fin 1) r)) = V m c main_v11 (ix2 (0 : Fin 1) r)
  refine congrArg (V m c main_v11) (funext fun a => Fin.ext ?_)
  match a with
  | ⟨0, _⟩ => show win0_2.index t (0 : Fin 2) * 1 + 1 * 0 = 0; rw [e4]
  | ⟨1, _⟩ => show win0_2.index t (1 : Fin 2) * 8 + 1 * r.val = r.val; rw [e5]; omega

/-! ## What a point writes back, and the array after the run -/

/-- The specified array of this run's arguments. -/
abbrev result (c : Dev nD) : Buf (Elt Ideal) ((c : Thread nD τ).loc main_v12) :=
  Cert.Spec.G (m ((c : Thread nD τ).loc main_arg0)) (m ((c : Thread nD τ).loc main_arg1)) (m ((c : Thread nD τ).loc main_arg2))

/-- WHAT POINT `t` WRITES BACK is block `t` of the specified array. -/
theorem flushed_eq (c : Dev nD) (t : Fin cfg0.N) :
    (dats m 0 c).flushed 3 t = ((cfg0.win 3).blk t).view.read (Elt Ideal) (result m c) := by
  obtain ⟨-, -, -, -, -, -, e6, e7⟩ := idx_facts t
  rw [Value.flushed3_A]
  refine (congrArg ((cfg0.win 3).cut (grid0.coords t))
    (out_eq c (grid0.coords t) (ms0_0 t) (hs0_0 t) (ms0_1 t) (hs0_1 t) (ms0_2 t) (hs0_2 t) (ms0_3 t) (hs0_3 t)
      (iblk m c 0 t) (iblk m c 1 t) (iblk m c 2 t))).trans ?_
  funext j
  obtain ⟨p, q, rfl⟩ : ∃ (p : Fin 512) (q : Fin 4094), j = ix2 p q := ⟨j 0, j 1, eq_ix2 j⟩
  show blockFn (iblk m c 0 t) (iblk m c 1 t) (iblk m c 2 t) (ix2 p q)
    = Cert.Spec.G (m ((c : Thread nD τ).loc main_arg0)) (m ((c : Thread nD τ).loc main_arg1))
        (m ((c : Thread nD τ).loc main_arg2)) (((cfg0.win 3).blk t).view.emb (ix2 p q))
  have hemb : ((cfg0.win 3).blk t).view.emb (ix2 p q) = ix2 (row t p) q := funext fun a => Fin.ext (by
    match a with
    | ⟨0, _⟩ => show win0_3.index t (0 : Fin 2) * 512 + 1 * p.val = t.val * 512 + p.val; rw [e6]; omega
    | ⟨1, _⟩ => show win0_3.index t (1 : Fin 2) * 4094 + 1 * q.val = q.val; rw [e7]; omega)
  rw [hemb, Cert.Spec.G_ix2, blockFn_ix2]
  exact entry_eq_out _ _ _ (iblk m c 0 t) (iblk m c 1 t) (iblk m c 2 t) t.val (point_lt t) (x_block m c t)
    (fun r n => (w_block m c t r n).trans (wpad_apply m c r n))
    (fun r => (b_block m c t r).trans (bpad_apply m c r)) p q

/-- An index of the result array is in point `t`'s block iff each coordinate is in the block's range on its axis. -/
theorem mem_blk (t : Fin cfg0.N) (i : S4096x4094.Idx) :
    i ∈ ((cfg0.win 3).blk t).view.set ↔ ∀ a : Fin 2, win0_3.index t a * S512x4094.size a ≤ (i a).val
      ∧ (i a).val < win0_3.index t a * S512x4094.size a + S512x4094.size a := by
  show i ∈ ((View.whole main_v12).slice (win0_3.rect t)).set ↔ _
  rw [View.set_slice_whole, Rect.mem_set_unit]
  exact Iff.rfl

/-- Every index of the result array lies in the block of the point its row belongs to. -/
theorem cover (i : S4096x4094.Idx) :
    ∃ t : Fin cfg0.N, (cfg0.win 3).flush t = true ∧ i ∈ ((cfg0.win 3).blk t).view.set := by
  have hi0 : (i 0).val < 4096 := (i 0).isLt
  have hi1 : (i 1).val < 4094 := (i 1).isLt
  have hN : cfg0.N = 8 := N_0
  have ht : (i 0).val / 512 < cfg0.N := by rw [hN]; omega
  obtain ⟨-, -, -, -, -, -, e6, e7⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e6]
    show (i 0).val / 512 * 512 ≤ (i 0).val ∧ (i 0).val < (i 0).val / 512 * 512 + 512
    omega
  | ⟨1, _⟩ =>
    show win0_3.index ⟨(i 0).val / 512, ht⟩ (1 : Fin 2) * 4094 ≤ (i 1).val
      ∧ (i 1).val < win0_3.index ⟨(i 0).val / 512, ht⟩ (1 : Fin 2) * 4094 + 4094
    rw [e7]
    omega

/-- THE RESULT ARRAY AFTER THE RUN is the specified array. -/
theorem final (c : Dev nD) : (dats m 0 c).arrAt 3 cfg0.N = result m c :=
  (dats m 0 c).arrAt_eq_of_cover 3 (result m c) (fun t _ => flushed_eq m c t) cover

/-- The kernel's run: the result array ends at the specified array of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefValue.lean ====
/-
  The reference computes the specified result: read at an index, its last array is the specification's.
-/
import proofs.«103411_j60662118089241_2_alg».proof.Proof.Spec
import proofs.«103411_j60662118089241_2_alg».proof.Proof.LibScatter
import proofs.«103411_j60662118089241_2_alg».proof.Proof.Gen.ReferenceIdeal.Read

noncomputable section

namespace Cert.ReferenceIdeal.RefValue

open Cert.ReferenceIdeal Cert.ReferenceIdeal.Gen Idealize.ShloMosaic Idealize.ShloMosaic.ValueIdx
open Cert.ReferenceIdeal.Read

/-- Where update `(p, r)` of the 4096×3 block lands in the 4096×4094 result: at `(p, r)`. -/
def rLand (j : S4096x3.Idx) : S4096x4094.Idx :=
  ix2 (j 0) (⟨(j 1).val, by have h : (j 1).val < 3 := (j 1).isLt; omega⟩ : Fin 4094)

theorem rLand_inj : Function.Injective rLand := fun j j' h => funext fun a => Fin.ext (by
  match a with
  | ⟨0, _⟩ =>
    have e : (rLand j 0).val = (rLand j' 0).val := congrArg Fin.val (congrFun h 0)
    exact e
  | ⟨1, _⟩ =>
    have e : (rLand j 1).val = (rLand j' 1).val := congrArg Fin.val (congrFun h 1)
    exact e)

theorem rLand_lands (idx : IVec S1 32) (hidx : ∀ k, idx k = 0#32) (j : S4096x3.Idx) :
    scatter_S4096x4094_S1_S4096x3_01_n_1_0.resultIdx? j idx = some (rLand j) :=
  ScatterDims.resultIdx?_eq_some_of_zero _ j idx hidx (rLand j) (fun a => by
    match a with
    | ⟨0, _⟩ => rfl
    | ⟨1, _⟩ => rfl)

/-- THE REFERENCE'S RESULT IS THE SPECIFIED ARRAY. Its last operation overwrites columns 0–2 of a zero array with the
    4096×3 array  input · (weight rows 0–2)ᵀ + 4096 · (bias entries 0–2),  broadcast down the rows; so column `q < 3`
    reads that array at `(p, q)` — a sum over the features plus the scaled bias entry — and column `q ≥ 3` the zero. -/
theorem result_eq (x0 : (⟨S4096x4096, .f32⟩ : BufTy).Contents (Elt Ideal)) (x1 : (⟨S4094x4096, .f32⟩ : BufTy).Contents (Elt Ideal))
    (x2 : (⟨S4094, .f32⟩ : BufTy).Contents (Elt Ideal)) :
    val_main_v11 (F := Ideal) x0 x1 x2 = Cert.Spec.G x0 x1 x2 := by
  funext i
  obtain ⟨p, q, rfl⟩ : ∃ (p : Fin 4096) (q : Fin 4094), i = ix2 p q := ⟨i 0, i 1, eq_ix2 i⟩
  rw [Cert.Spec.G_ix2]
  unfold val_main_v11 Cert.Spec.out
  have hidx : ∀ k : S1.Idx, val_main_v10 (F := Ideal) k = 0#32 := fun k => rfl
  by_cases h : q.val < 3
  · rw [if_pos h]
    have e : ix2 p q = rLand (ix2 p (⟨q.val, h⟩ : Fin 3)) := funext fun a => Fin.ext (by
      match a with
      | ⟨0, _⟩ => rfl
      | ⟨1, _⟩ => rfl)
    rw [e, Host.scatter_set_apply_emb _ _ _ _ rLand (rLand_lands _ hidx) rLand_inj]
    rw [val_main_v8_apply, val_main_v2_apply, val_main_v7_apply, val_main_v6_apply, val_main_v5_apply,
      val_main_v4_apply, val_main_cst_apply, val_main_v3_apply]
    have hsum : (∑ k : Fin 4096, x0 (lidx_main_v2 (ix2 p (⟨q.val, h⟩ : Fin 3)) k)
          * val_main_v1 (F := Ideal) x1 (ridx_main_v2 (ix2 p (⟨q.val, h⟩ : Fin 3)) k))
        = ∑ n : Fin 4096, x0 (ix2 p n) * x1 (ix2 q n) :=
      Finset.sum_congr rfl fun k _ => by
        rw [val_main_v1_apply, val_main_v0_apply]
        exact congrArg₂ (· * ·)
          (congrArg x0 (funext fun a => Fin.ext (by match a with | ⟨0, _⟩ => rfl | ⟨1, _⟩ => rfl)))
          (congrArg x1 (funext fun a => Fin.ext (by match a with | ⟨0, _⟩ => rfl | ⟨1, _⟩ => rfl)))
    have hb : x2 (idx_main_v3 (idx_main_v6 (idx_main_v7 (ix2 p (⟨q.val, h⟩ : Fin 3))))) = x2 (ix1 q) :=
      congrArg x2 (funext fun a => Fin.ext (by match a with | ⟨0, _⟩ => rfl))
    rw [hsum, hb]
    rfl
  · rw [if_neg h, Host.scatter_set_apply_off _ _ _ _ rLand (rLand_lands _ hidx) (ix2 p q) (fun j hj => by
      have h0 : (rLand j 1).val = q.val := congrArg Fin.val (congrFun hj 1)
      have h1 : (j 1).val = q.val := h0
      have h2 : (j 1).val < 3 := (j 1).isLt
      omega)]
    exact Ideal.ofBits_zero_f32

end Cert.ReferenceIdeal.RefValue

end
-- ==== Proof.lean ====
/-
  A skinny linear layer with a scaled bias, zero-filled to 4094 columns: kernel against reference, over the
  extended reals.

  Both programs compute, from input X (4096×4096), weight W (4094×4096) and bias B (4094), the 4096×4094 array
      out(p, q) = Σₙ X(p,n)·W(q,n) + 4096·B(q)   for q < 3,      out(p, q) = 0   for q ≥ 3.
  The reference forms the 4096×3 product and overwrites the first three columns of a zero array with it. The kernel
  pads W's first three rows to eight rows with zeros, and 4096·B's first three entries to eight with zeros, and on
  each of eight blocks of 512 rows forms the 512×8 product plus bias, widens it with zero columns and zero-fills the
  rest. The two agree column by column: for q < 3 they are the same sum and the same scaled bias entry (4096 is the
  same float word on both sides); for 3 ≤ q < 8 the kernel's entry is Σₙ X(p,n)·0 + 0 = 0, a product with zero being
  zero on the extended reals whatever the other factor; for q ≥ 8 both are zero. So the precondition is not opened.

  The frames are the generated ones (the reference's is its run with the result dropped); the idealization rewrote
  nothing, so `preserves` is trivial.
-/
import proofs.«103411_j60662118089241_2_alg».proof.Defs
import proofs.«103411_j60662118089241_2_alg».proof.Proof.Gen.Kernel
import proofs.«103411_j60662118089241_2_alg».proof.Proof.Gen.Kernel.Skeleton
import proofs.«103411_j60662118089241_2_alg».proof.Proof.Gen.Kernel.Launch
import proofs.«103411_j60662118089241_2_alg».proof.Proof.Gen.Kernel.Points
import proofs.«103411_j60662118089241_2_alg».proof.Proof.Gen.Kernel.Frame
import proofs.«103411_j60662118089241_2_alg».proof.Proof.Gen.KernelIdeal
import proofs.«103411_j60662118089241_2_alg».proof.Proof.Gen.KernelIdeal.Skeleton
import proofs.«103411_j60662118089241_2_alg».proof.Proof.Gen.KernelIdeal.Launch
import proofs.«103411_j60662118089241_2_alg».proof.Proof.Gen.KernelIdeal.Points
import proofs.«103411_j60662118089241_2_alg».proof.Proof.Gen.KernelIdeal.Frame
import proofs.«103411_j60662118089241_2_alg».proof.Proof.Gen.ReferenceIdeal
import proofs.«103411_j60662118089241_2_alg».proof.Proof.Gen.Pre_finite_inputs
import proofs.«103411_j60662118089241_2_alg».proof.Proof.Gen.KernelIdeal.Value
import proofs.«103411_j60662118089241_2_alg».proof.Proof.Gen.ReferenceIdeal.Run
import proofs.«103411_j60662118089241_2_alg».proof.Proof.Gen.ReferenceIdeal.Read
import proofs.«103411_j60662118089241_2_alg».proof.Proof.ArrayValue
import proofs.«103411_j60662118089241_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specified array of their (agreeing) arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
